-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S8x512 : Shape := ⟨2, ![8, 512]⟩
abbrev S512 : Shape := ⟨1, ![512]⟩
abbrev S256x512 : Shape := ⟨2, ![256, 512]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S8x512 : S_.BroadcastsInDim S8x512 (![] : Fin 0 → Fin S8x512.rank)
  reducesTo_S8x512_S_d0_1 : S8x512.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  main_v18

def fn {F : FTy → Type} [FloatOps F] (main_arg0 : FVec F S1024x1024 .f32) (main_arg1 : FVec F S8x512 .f32) (main_arg2 : FVec F S512 .f32) (main_arg3 : FVec F S256x512 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_v13 main_v16
-- ==== Kernel.lean ====
abbrev S1024x1024 : Shape := ⟨2, ![1024, 1024]⟩
abbrev S8x512 : Shape := ⟨2, ![8, 512]⟩
abbrev S512 : Shape := ⟨1, ![512]⟩
abbrev S256x512 : Shape := ⟨2, ![256, 512]⟩
abbrev S1024x128x8 : Shape := ⟨3, ![1024, 128, 8]⟩
abbrev S1024x8x128 : Shape := ⟨3, ![1024, 8, 128]⟩
abbrev S1x512 : Shape := ⟨2, ![1, 512]⟩
abbrev S1024x128x512 : Shape := ⟨3, ![1024, 128, 512]⟩
abbrev S32x8x128 : Shape := ⟨3, ![32, 8, 128]⟩
abbrev S128x512 : Shape := ⟨2, ![128, 512]⟩
abbrev S32x128x512 : Shape := ⟨3, ![32, 128, 512]⟩
abbrev S1x8x128 : Shape := ⟨3, ![1, 8, 128]⟩
abbrev S8x128 : Shape := ⟨2, ![8, 128]⟩
abbrev S1x128x512 : Shape := ⟨3, ![1, 128, 512]⟩

abbrev nBuf : Space → Nat
  | .hbm => 8
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S8x512, .f32⟩
  | .hbm, ⟨2, _⟩ => ⟨S512, .f32⟩
  | .hbm, ⟨3, _⟩ => ⟨S256x512, .f32⟩
  | .hbm, ⟨4, _⟩ => ⟨S1024x128x8, .f32⟩
  | .hbm, ⟨5, _⟩ => ⟨S1024x8x128, .f32⟩
  | .hbm, ⟨6, _⟩ => ⟨S1x512, .f32⟩
  | .hbm, ⟨7, _⟩ => ⟨S1024x128x512, .f32⟩
  | .local _ .vmem, ⟨0, _⟩ => ⟨S32x8x128, .f32⟩
  | .local _ .vmem, ⟨1, _⟩ => ⟨S32x8x128, .f32⟩
  | .local _ .vmem, ⟨2, _⟩ => ⟨S8x512, .f32⟩
  | .local _ .vmem, ⟨3, _⟩ => ⟨S1x512, .f32⟩
  | .local _ .vmem, ⟨4, _⟩ => ⟨S128x512, .f32⟩
  | .local _ .vmem, ⟨5, _⟩ => ⟨S32x128x512, .f32⟩
  | .local _ .vmem, ⟨6, _⟩ => ⟨S32x128x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024x1024_S1024x128x8 : S1024x1024.ShapeCasts S1024x128x8
  transposes_S1024x128x8_S1024x8x128_0_2_1 : S1024x128x8.Transposes [0, 2, 1] S1024x8x128
  shapeCasts_S512_S1x512 : S512.ShapeCasts S1x512
  inb_S8x512_S8x512_0_0 : ∀ a, (![0, 0] : Fin 2 → Nat) a + S8x512.size a ≤ S8x512.size a
  h_S8x512 : 0 < S8x512.numel
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S32x8x128_S1x8x128_0_0_0 : ∀ a, (![0, 0, 0] : Fin 3 → Nat) a + S1x8x128.size a ≤ S32x8x128.size a
  h_S1x8x128 : 0 < S1x8x128.numel
  shapeCasts_S1x8x128_S8x128 : S1x8x128.ShapeCasts S8x128
  inb_S32x128x512_S1x128x512_0_0_0 : ∀ a, (![0, 0, 0] : Fin 3 → Nat) a + S1x128x512.size a ≤ S32x128x512.size a
  h_S1x128x512 : 0 < S1x128x512.numel
  shapeCasts_S1x128x512_S128x512 : S1x128x512.ShapeCasts S128x512
  shapeCasts_S128x512_S1x128x512 : S128x512.ShapeCasts S1x128x512
  inb_S32x8x128_S1x8x128_1_0_0 : ∀ a, (![1, 0, 0] : Fin 3 → Nat) a + S1x8x128.size a ≤ S32x8x128.size a
  inb_S32x128x512_S1x128x512_1_0_0 : ∀ a, (![1, 0, 0] : Fin 3 → Nat) a + S1x128x512.size a ≤ S32x128x512.size a
  inb_S32x8x128_S1x8x128_2_0_0 : ∀ a, (![2, 0, 0] : Fin 3 → Nat) a + S1x8x128.size a ≤ S32x8x128.size a
  inb_S32x128x512_S1x128x512_2_0_0 : ∀ a, (![2, 0, 0] : Fin 3 → Nat) a + S1x128x512.size a ≤ S32x128x512.size a
  inb_S32x8x128_S1x8x128_3_0_0 : ∀ a, (![3, 0, 0] : Fin 3 → Nat) a + S1x8x128.size a ≤ S32x8x128.size a
  inb_S32x128x512_S1x128x512_3_0_0 : ∀ a, (![3, 0, 0] : Fin 3 → Nat) a + S1x128x512.size a ≤ S32x128x512.size a
  inb_S32x8x128_S1x8x128_4_0_0 : ∀ a, (![4, 0, 0] : Fin 3 → Nat) a + S1x8x128.size a ≤ S32x8x128.size a
  inb_S32x128x512_S1x128x512_4_0_0 : ∀ a, (![4, 0, 0] : Fin 3 → Nat) a + S1x128x512.size a ≤ S32x128x512.size a
  inb_S32x8x128_S1x8x128_5_0_0 : ∀ a, (![5, 0, 0] : Fin 3 → Nat) a + S1x8x128.size a ≤ S32x8x128.size a
  inb_S32x128x512_S1x128x512_5_0_0 : ∀ a, (![5, 0, 0] : Fin 3 → Nat) a + S1x128x512.size a ≤ S32x128x512.size a
  inb_S32x8x128_S1x8x128_6_0_0 : ∀ a, (![6, 0, 0] : Fin 3 → Nat) a + S1x8x128.size a ≤ S32x8x128.size a
  inb_S32x128x512_S1x128x512_6_0_0 : ∀ a, (![6, 0, 0] : Fin 3 → Nat) a + S1x128x512.size a ≤ S32x128x512.size a
  inb_S32x8x128_S1x8x128_7_0_0 : ∀ a, (![7, 0, 0] : Fin 3 → Nat) a + S1x8x128.size a ≤ S32x8x128.size a
  inb_S32x128x512_S1x128x512_7_0_0 : ∀ a, (![7, 0, 0] : Fin 3 → Nat) a + S1x128x512.size a ≤ S32x128x512.size a
  inb_S32x8x128_S1x8x128_8_0_0 : ∀ a, (![8, 0, 0] : Fin 3 → Nat) a + S1x8x128.size a ≤ S32x8x128.size a
  inb_S32x128x512_S1x128x512_8_0_0 : ∀ a, (![8, 0, 0] : Fin 3 → Nat) a + S1x128x512.size a ≤ S32x128x512.size a
  inb_S32x8x128_S1x8x128_9_0_0 : ∀ a, (![9, 0, 0] : Fin 3 → Nat) a + S1x8x128.size a ≤ S32x8x128.size a
  inb_S32x128x512_S1x128x512_9_0_0 : ∀ a, (![9, 0, 0] : Fin 3 → Nat) a + S1x128x512.size a ≤ S32x128x512.size a
  inb_S32x8x128_S1x8x128_10_0_0 : ∀ a, (![10, 0, 0] : Fin 3 → Nat) a + S1x8x128.size a ≤ S32x8x128.size a
  inb_S32x128x512_S1x128x512_10_0_0 : ∀ a, (![10, 0, 0] : Fin 3 → Nat) a + S1x128x512.size a ≤ S32x128x512.size a
  inb_S32x8x128_S1x8x128_11_0_0 : ∀ a, (![11, 0, 0] : Fin 3 → Nat) a + S1x8x128.size a ≤ S32x8x128.size a
  inb_S32x128x512_S1x128x512_11_0_0 : ∀ a, (![11, 0, 0] : Fin 3 → Nat) a + S1x128x512.size a ≤ S32x128x512.size a
  inb_S32x8x128_S1x8x128_12_0_0 : ∀ a, (![12, 0, 0] : Fin 3 → Nat) a + S1x8x128.size a ≤ S32x8x128.size a
  inb_S32x128x512_S1x128x512_12_0_0 : ∀ a, (![12, 0, 0] : Fin 3 → Nat) a + S1x128x512.size a ≤ S32x128x512.size a
  inb_S32x8x128_S1x8x128_13_0_0 : ∀ a, (![13, 0, 0] : Fin 3 → Nat) a + S1x8x128.size a ≤ S32x8x128.size a
  inb_S32x128x512_S1x128x512_13_0_0 : ∀ a, (![13, 0, 0] : Fin 3 → Nat) a + S1x128x512.size a ≤ S32x128x512.size a
  inb_S32x8x128_S1x8x128_14_0_0 : ∀ a, (![14, 0, 0] : Fin 3 → Nat) a + S1x8x128.size a ≤ S32x8x128.size a
  inb_S32x128x512_S1x128x512_14_0_0 : ∀ a, (![14, 0, 0] : Fin 3 → Nat) a + S1x128x512.size a ≤ S32x128x512.size a
  inb_S32x8x128_S1x8x128_15_0_0 : ∀ a, (![15, 0, 0] : Fin 3 → Nat) a + S1x8x128.size a ≤ S32x8x128.size a
  inb_S32x128x512_S1x128x512_15_0_0 : ∀ a, (![15, 0, 0] : Fin 3 → Nat) a + S1x128x512.size a ≤ S32x128x512.size a
  inb_S32x8x128_S1x8x128_16_0_0 : ∀ a, (![16, 0, 0] : Fin 3 → Nat) a + S1x8x128.size a ≤ S32x8x128.size a
  inb_S32x128x512_S1x128x512_16_0_0 : ∀ a, (![16, 0, 0] : Fin 3 → Nat) a + S1x128x512.size a ≤ S32x128x512.size a
  inb_S32x8x128_S1x8x128_17_0_0 : ∀ a, (![17, 0, 0] : Fin 3 → Nat) a + S1x8x128.size a ≤ S32x8x128.size a
  inb_S32x128x512_S1x128x512_17_0_0 : ∀ a, (![17, 0, 0] : Fin 3 → Nat) a + S1x128x512.size a ≤ S32x128x512.size a
  inb_S32x8x128_S1x8x128_18_0_0 : ∀ a, (![18, 0, 0] : Fin 3 → Nat) a + S1x8x128.size a ≤ S32x8x128.size a
  inb_S32x128x512_S1x128x512_18_0_0 : ∀ a, (![18, 0, 0] : Fin 3 → Nat) a + S1x128x512.size a ≤ S32x128x512.size a
  inb_S32x8x128_S1x8x128_19_0_0 : ∀ a, (![19, 0, 0] : Fin 3 → Nat) a + S1x8x128.size a ≤ S32x8x128.size a
  inb_S32x128x512_S1x128x512_19_0_0 : ∀ a, (![19, 0, 0] : Fin 3 → Nat) a + S1x128x512.size a ≤ S32x128x512.size a
  inb_S32x8x128_S1x8x128_20_0_0 : ∀ a, (![20, 0, 0] : Fin 3 → Nat) a + S1x8x128.size a ≤ S32x8x128.size a
  inb_S32x128x512_S1x128x512_20_0_0 : ∀ a, (![20, 0, 0] : Fin 3 → Nat) a + S1x128x512.size a ≤ S32x128x512.size a
  inb_S32x8x128_S1x8x128_21_0_0 : ∀ a, (![21, 0, 0] : Fin 3 → Nat) a + S1x8x128.size a ≤ S32x8x128.size a
  inb_S32x128x512_S1x128x512_21_0_0 : ∀ a, (![21, 0, 0] : Fin 3 → Nat) a + S1x128x512.size a ≤ S32x128x512.size a
  inb_S32x8x128_S1x8x128_22_0_0 : ∀ a, (![22, 0, 0] : Fin 3 → Nat) a + S1x8x128.size a ≤ S32x8x128.size a
  inb_S32x128x512_S1x128x512_22_0_0 : ∀ a, (![22, 0, 0] : Fin 3 → Nat) a + S1x128x512.size a ≤ S32x128x512.size a
  inb_S32x8x128_S1x8x128_23_0_0 : ∀ a, (![23, 0, 0] : Fin 3 → Nat) a + S1x8x128.size a ≤ S32x8x128.size a
  inb_S32x128x512_S1x128x512_23_0_0 : ∀ a, (![23, 0, 0] : Fin 3 → Nat) a + S1x128x512.size a ≤ S32x128x512.size a
  inb_S32x8x128_S1x8x128_24_0_0 : ∀ a, (![24, 0, 0] : Fin 3 → Nat) a + S1x8x128.size a ≤ S32x8x128.size a
  inb_S32x128x512_S1x128x512_24_0_0 : ∀ a, (![24, 0, 0] : Fin 3 → Nat) a + S1x128x512.size a ≤ S32x128x512.size a
  inb_S32x8x128_S1x8x128_25_0_0 : ∀ a, (![25, 0, 0] : Fin 3 → Nat) a + S1x8x128.size a ≤ S32x8x128.size a
  inb_S32x128x512_S1x128x512_25_0_0 : ∀ a, (![25, 0, 0] : Fin 3 → Nat) a + S1x128x512.size a ≤ S32x128x512.size a
  inb_S32x8x128_S1x8x128_26_0_0 : ∀ a, (![26, 0, 0] : Fin 3 → Nat) a + S1x8x128.size a ≤ S32x8x128.size a
  inb_S32x128x512_S1x128x512_26_0_0 : ∀ a, (![26, 0, 0] : Fin 3 → Nat) a + S1x128x512.size a ≤ S32x128x512.size a
  inb_S32x8x128_S1x8x128_27_0_0 : ∀ a, (![27, 0, 0] : Fin 3 → Nat) a + S1x8x128.size a ≤ S32x8x128.size a
  inb_S32x128x512_S1x128x512_27_0_0 : ∀ a, (![27, 0, 0] : Fin 3 → Nat) a + S1x128x512.size a ≤ S32x128x512.size a
  inb_S32x8x128_S1x8x128_28_0_0 : ∀ a, (![28, 0, 0] : Fin 3 → Nat) a + S1x8x128.size a ≤ S32x8x128.size a
  inb_S32x128x512_S1x128x512_28_0_0 : ∀ a, (![28, 0, 0] : Fin 3 → Nat) a + S1x128x512.size a ≤ S32x128x512.size a
  inb_S32x8x128_S1x8x128_29_0_0 : ∀ a, (![29, 0, 0] : Fin 3 → Nat) a + S1x8x128.size a ≤ S32x8x128.size a
  inb_S32x128x512_S1x128x512_29_0_0 : ∀ a, (![29, 0, 0] : Fin 3 → Nat) a + S1x128x512.size a ≤ S32x128x512.size a
  inb_S32x8x128_S1x8x128_30_0_0 : ∀ a, (![30, 0, 0] : Fin 3 → Nat) a + S1x8x128.size a ≤ S32x8x128.size a
  inb_S32x128x512_S1x128x512_30_0_0 : ∀ a, (![30, 0, 0] : Fin 3 → Nat) a + S1x128x512.size a ≤ S32x128x512.size a
  inb_S32x8x128_S1x8x128_31_0_0 : ∀ a, (![31, 0, 0] : Fin 3 → Nat) a + S1x8x128.size a ≤ S32x8x128.size a
  inb_S32x128x512_S1x128x512_31_0_0 : ∀ a, (![31, 0, 0] : Fin 3 → Nat) a + S1x128x512.size a ≤ S32x128x512.size a
  dot_S8x128_S8x512_S128x512_0_0_1_1_n_n_wf : DotDims.WF S8x128 S8x512 S128x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x8x128.size a ≤ S1024x8x128.size a
  hwx0_0 : ∀ i : grid0.Coords, EltTy.bits .f32 = 32 ∨ (Rect.block (s := S1024x8x128) S32x8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S8x512.size a
  hwx0_1 : ∀ i : grid0.Coords, EltTy.bits .f32 = 32 ∨ (Rect.block (s := S8x512) S8x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S256x512.size a
  hwx0_3 : ∀ i : grid0.Coords, EltTy.bits .f32 = 32 ∨ (Rect.block (s := S256x512) S128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128x512.size a ≤ S1024x128x512.size a
  hwx0_4 : ∀ i : grid0.Coords, EltTy.bits .f32 = 32 ∨ (Rect.block (s := S1024x128x512) S32x128x512.size (cc0_transform_4 i) (hinb0_4 i)).WholeWords (EltTy.packing .f32)

variable [Facts₀]

def dot_S8x128_S8x512_S128x512_0_0_1_1_n_n : DotDims S8x128 S8x512 S128x512 where
  lhsContracting := [0]
  rhsContracting := [0]
  lhsNonContracting := [1]
  rhsNonContracting := [1]
  lhsBatch := []
  rhsBatch := []
  wf := dot_S8x128_S8x512_S128x512_0_0_1_1_n_n_wf

abbrev win0_0 : Pipeline.Window sig grid0 :=
  Pipeline.Window.ofSpec (Memref.whole main_v1) S32x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x128x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S8x512 : Shape := ⟨2, ![8, 512]⟩
abbrev S512 : Shape := ⟨1, ![512]⟩
abbrev S256x512 : Shape := ⟨2, ![256, 512]⟩
abbrev S1024x128x8 : Shape := ⟨3, ![1024, 128, 8]⟩
abbrev S1024x128x512 : Shape := ⟨3, ![1024, 128, 512]⟩
abbrev S1x1x512 : Shape := ⟨3, ![1, 1, 512]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S128x512 : Shape := ⟨2, ![128, 512]⟩
abbrev S1x128x512 : Shape := ⟨3, ![1, 128, 512]⟩

abbrev nBuf : Space → Nat
  | .hbm => 36
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8x512, .f32⟩
  | .hbm, ⟨2, _⟩ => ⟨S512, .f32⟩
  | .hbm, ⟨3, _⟩ => ⟨S256x512, .f32⟩
  | .hbm, ⟨4, _⟩ => ⟨S1024x128x8, .f32⟩
  | .hbm, ⟨5, _⟩ => ⟨S1024x128x512, .f32⟩
  | .hbm, ⟨6, _⟩ => ⟨S1x1x512, .f32⟩
  | .hbm, ⟨7, _⟩ => ⟨S1024x128x512, .f32⟩
  | .hbm, ⟨8, _⟩ => ⟨S1024x128x512, .f32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128, .i32⟩
  | .hbm, ⟨17, _⟩ => ⟨S128x1, .i32⟩
  | .hbm, ⟨18, _⟩ => ⟨S1, .i32⟩
  | .hbm, ⟨19, _⟩ => ⟨S_, .i32⟩
  | .hbm, ⟨20, _⟩ => ⟨S128x1, .i32⟩
  | .hbm, ⟨21, _⟩ => ⟨S128x1, .i1⟩
  | .hbm, ⟨22, _⟩ => ⟨S1x1, .i32⟩
  | .hbm, ⟨23, _⟩ => ⟨S128x1, .i32⟩
  | .hbm, ⟨24, _⟩ => ⟨S128x1, .i1⟩
  | .hbm, ⟨25, _⟩ => ⟨S128x1, .i1⟩
  | .hbm, ⟨26, _⟩ => ⟨S_, .i1⟩
  | .hbm, ⟨27, _⟩ => ⟨S128, .i1⟩
  | .hbm, ⟨28, _⟩ => ⟨S128x512, .f32⟩
  | .hbm, ⟨29, _⟩ => ⟨S128x512, .i1⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S1x128x512, .f32⟩
  | .hbm, ⟨34, _⟩ => ⟨S1024x128x512, .f32⟩
  | .hbm, ⟨35, _⟩ => ⟨S1024x128x512, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩

abbrev nD : Nat := 1
abbrev τ : Topo := Topo.v7x

variable {F : FTy → Type} [FloatOps F]

class Facts₀ : Prop where
  shapeCasts_S1024x1024_S1024x128x8 : S1024x1024.ShapeCasts S1024x128x8
  bcast_S512_S1x1x512_2 : S512.BroadcastsInDim S1x1x512 (![2] : Fin 1 → Fin S1x1x512.rank)
  bcast_S1x1x512_S1024x128x512_0_1_2 : S1x1x512.BroadcastsInDim S1024x128x512 (![0, 1, 2] : Fin 3 → Fin S1024x128x512.rank)
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  reducesTo_S128x1_S128_d1 : S128x1.ReducesTo [1] S128
  h_S_ : 0 < S_.numel
  bcast_S128_S128x512_0 : S128.BroadcastsInDim S128x512 (![0] : Fin 1 → Fin S128x512.rank)
  bcast_S_S128x512 : S_.BroadcastsInDim S128x512 (![] : Fin 0 → Fin S128x512.rank)
  bcast_S128x512_S1x128x512_1_2 : S128x512.BroadcastsInDim S1x128x512 (![1, 2] : Fin 2 → Fin S1x128x512.rank)
  bcast_S1x128x512_S1024x128x512_0_1_2 : S1x128x512.BroadcastsInDim S1024x128x512 (![0, 1, 2] : Fin 3 → Fin S1024x128x512.rank)
  dot_S1024x128x8_S8x512_S1024x128x512_2_0_01_1_n_n_wf : DotDims.WF S1024x128x8 S8x512 S1024x128x512 [2] [0] [0, 1] [1] [] []
  gather_S256x512_S128x1_S128x512_1_0_n_n_0_1_1512_wf : GatherDims.WF S256x512 S128x1 S128x512 [1] [0] [] [0] [] 1 ![1, 512]

variable [Facts₀]

def dot_S1024x128x8_S8x512_S1024x128x512_2_0_01_1_n_n : DotDims S1024x128x8 S8x512 S1024x128x512 where
  lhsContracting := [2]
  rhsContracting := [0]
  lhsNonContracting := [0, 1]
  rhsNonContracting := [1]
  lhsBatch := []
  rhsBatch := []
  wf := dot_S1024x128x8_S8x512_S1024x128x512_2_0_01_1_n_n_wf
def gather_S256x512_S128x1_S128x512_1_0_n_n_0_1_1512 : GatherDims S256x512 S128x1 S128x512 where
  offsetDims := [1]
  collapsedSliceDims := [0]
  operandBatchingDims := []
  startIndicesBatchingDims := []
  startIndexMap := [0]
  indexVectorDim := 1
  sliceSizes := ![1, 512]
  wf := gather_S256x512_S128x1_S128x512_1_0_n_n_0_1_1512_wf

class Facts : Prop extends Facts₀ where

variable [Facts]
-- ==== Proof.LibMatmulTransposedLhs.lean ====
/-
  THE TRANSPOSE OF A MATRIX TIMES A MATRIX, READ AT AN ENTRY. A `K × M` matrix `l` and a `K × N` matrix `r` contracted along
  their FIRST axes (`tpu.matmul` with contracting axes `[0]` and `[0]`, non-contracting axes `[1]` and `[1]`, no batch
  axes) into a zero accumulator give the `M × N` matrix `lᵀ r`. At the exact values (floats as extended reals, every
  operation the textbook one) its entry `(p, n)` is the plain finite sum

      ∑ k < K, l (k, p) · r (k, n),

  for any extents `K`, `M`, `N` and any formats of the operands. The contraction index of such a product has one axis of
  extent `K`; the sum over it is re-indexed by that axis's coordinate, and the two operand indices at output index `(p, n)`
  and contraction coordinate `k` are `(k, p)` and `(k, n)`.
-/
import Idealize.ShloMosaic.Lib.ValueIdx
import Idealize.ShloMosaic.PureOps.Ideal.Laws

noncomputable section

open scoped BigOperators
open Idealize.ShloMosaic Idealize.ShloMosaic.ValueIdx

namespace Cert.Lib.MatmulTransposedLhs

/-- The dimension numbers of `lᵀ r` for `l : K × M`, `r : K × N`: both operands contracted on axis 0, their axes 1 kept, no batch
    axes. Their conditions `wf` are decided on a program's literal shapes. -/
abbrev transposedLhs (K M N : Nat) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {K M N : Nat} (wf : DotDims.WF ⟨2, ![K, M]⟩ ⟨2, ![K, N]⟩ ⟨2, ![M, N]⟩ [0] [0] [1] [1] [] [])

/-- One axis is contracted, -/
theorem contr_rank : (transposedLhs K M N wf).contr.rank = 1 := rfl
/-- of extent `K`. -/
theorem contr_size : (transposedLhs K M N wf).contr.size ⟨0, by rw [contr_rank]; exact Nat.one_pos⟩ = K := rfl

/-- The left operand's index at output `(p, n)` and contraction coordinate `k` is `(k, p)`. -/
theorem lhsIdx_eq (p : Fin M) (n : Fin N) (k : Fin K) :
    (transposedLhs K M N wf).lhsIdx (ix2 p n) ((contrEquiv1 (transposedLhs K M N wf) K (contr_rank wf) (contr_size wf)).symm k) = ix2 k p := by
  funext a
  refine Fin.ext ?_
  match a with
  | ⟨0, _⟩ =>
    exact ((transposedLhs K M N wf).lhsIdx_val_of_single (cl := 0) rfl _ _).trans
      (contrEquiv1_symm_val _ K (contr_rank wf) (contr_size wf) k)
  | ⟨1, _⟩ => rfl

/-- The right operand's index at output `(p, n)` and contraction coordinate `k` is `(k, n)`. -/
theorem rhsIdx_eq (p : Fin M) (n : Fin N) (k : Fin K) :
    (transposedLhs K M N wf).rhsIdx (ix2 p n) ((contrEquiv1 (transposedLhs K M N wf) K (contr_rank wf) (contr_size wf)).symm k) = ix2 k n := by
  funext a
  refine Fin.ext ?_
  match a with
  | ⟨0, _⟩ =>
    exact ((transposedLhs K M N wf).rhsIdx_val_of_single (cr := 0) rfl _ _).trans
      (contrEquiv1_symm_val _ K (contr_rank wf) (contr_size wf) k)
  | ⟨1, _⟩ => rfl

/-- ENTRY `(p, n)` OF `lᵀ r` accumulated into zero: the sum over `k` of `l (k, p) · r (k, n)`. -/
theorem matmul_apply {φ₁ φ₂ : FTy} (prec : Option ContractPrecision) (l : FVec Ideal ⟨2, ![K, M]⟩ φ₁) (r : FVec Ideal ⟨2, ![K, N]⟩ φ₂)
    (p : Fin M) (n : Fin N) :
    matmul (transposedLhs K M N wf) prec l r (constant (F := Ideal) ⟨2, ![M, N]⟩ .f32 0x00000000#32) (ix2 p n)
      = ∑ k : Fin K, l (ix2 k p) * r (ix2 k n) := by
  refine (Ideal.matmul_constant_zero_apply (transposedLhs K M N wf) prec l r (ix2 p n)).trans ?_
  rw [← Equiv.sum_comp (contrEquiv1 (transposedLhs K M N wf) K (contr_rank wf) (contr_size wf)).symm]
  refine Finset.sum_congr rfl fun k _ => ?_
  rw [lhsIdx_eq, rhsIdx_eq]

/-- The same for any record of dimension numbers that IS those (a printed record is, by `rfl`). -/
theorem matmul_apply_of_eq {φ₁ φ₂ : FTy} (d : DotDims ⟨2, ![K, M]⟩ ⟨2, ![K, N]⟩ ⟨2, ![M, N]⟩) (hd : d = transposedLhs K M N wf)
    (prec : Option ContractPrecision) (l : FVec Ideal ⟨2, ![K, M]⟩ φ₁) (r : FVec Ideal ⟨2, ![K, N]⟩ φ₂) (p : Fin M) (n : Fin N) :
    matmul d prec l r (constant (F := Ideal) ⟨2, ![M, N]⟩ .f32 0x00000000#32) (ix2 p n) = ∑ k : Fin K, l (ix2 k p) * r (ix2 k n) := by
  subst hd
  exact matmul_apply wf prec l r p n

end Cert.Lib.MatmulTransposedLhs

end
-- ==== Proof.KernelBlock.lean ====
/-
  What one grid point's body leaves in the output block, entry by entry.

  The body holds a `32 × 8 × 128` block `x0` of the transposed patches (row `b`, sample `p` of patch `r` at `(b, p, r)`), the
  `8 × 512` matrix `x1`, the bias as a `1 × 512` row `x2` and the first 128 rows `x3` of the position table. For each of the 32
  rows `b` it multiplies the transpose of the `8 × 128` slab `x0 (b, ·, ·)` by `x1`, adds `x3 + x2` (the bias row repeated down
  the 128 rows) and stores the `128 × 512` result as slab `b` of the `32 × 128 × 512` output block. So the block holds

      (b, r, d) ↦ (∑ p < 8, x0 (b, p, r) · x1 (p, d)) + (x3 (r, d) + x2 (0, d)),

  each of the 32 stores writing the slab of this one function that its rectangle names.
-/
import proofs.«128567_g67181878444427_cont_9to1c4b_463_22_alg».proof.Proof.Gen.KernelIdeal.Frame
import proofs.«128567_g67181878444427_cont_9to1c4b_463_22_alg».proof.Proof.LibMatmulTransposedLhs
import Idealize.ShloMosaic.Lib.ValueLayout
import Idealize.ShloMosaic.Lib.Pipeline.Value

noncomputable section

open scoped BigOperators

namespace Cert.KernelIdeal.Block

open Cert.KernelIdeal Cert.KernelIdeal.Gen Idealize.ShloMosaic Idealize.ShloMosaic.ValueIdx

/-- The function the output block holds after the body. -/
def blockFn (x0 : Vec Ideal S32x8x128 .f32) (x1 : Vec Ideal S8x512 .f32) (x2 : Vec Ideal S1x512 .f32) (x3 : Vec Ideal S128x512 .f32) :
    S32x128x512.Idx → EReal :=
  fun j => (∑ p : Fin 8, x0 (ix3 (j 0) p (j 1)) * x1 (ix2 p (j 2))) + (x3 (ix2 (j 1) (j 2)) + x2 (ix2 (0 : Fin 1) (j 2)))

/-- The position rows plus the bias row, at `(r, d)`. -/
theorem addend_apply (v1 : Vec Ideal S128x512 .f32) (v2 : Vec Ideal S1x512 .f32) (r : Fin 128) (d : Fin 512) :
    k0_pay2 (F := Ideal) v1 v2 (ix2 r d) = v1 (ix2 r d) + v2 (ix2 (0 : Fin 1) d) := by
  unfold k0_pay2
  refine (addf_apply _ _ _).trans ?_
  rw [shapeCast_self, broadcastTo_1b_ab_apply]

/-- One slab's payload at `(u, r, d)`: the transposed patch slab times the matrix, plus the addend. -/
theorem slab_apply (v0 : Vec Ideal S8x512 .f32) (v5 : FVec Ideal S128x512 .f32) (vx : Vec Ideal S1x8x128 .f32)
    (u : Fin 1) (r : Fin 128) (d : Fin 512) :
    k0_pay1 (F := Ideal) v0 v5 vx (ix3 u r d) = (∑ p : Fin 8, vx (ix3 (0 : Fin 1) p r) * v0 (ix2 p d)) + v5 (ix2 r d) := by
  unfold k0_pay1
  refine (shapeCast_ab_1ab_apply _ _ u r d).trans ?_
  refine (addf_apply _ _ _).trans ?_
  refine congrArg (· + v5 (ix2 r d)) ?_
  refine (Cert.Lib.MatmulTransposedLhs.matmul_apply_of_eq dot_S8x128_S8x512_S128x512_0_0_1_1_n_n_wf
    dot_S8x128_S8x512_S128x512_0_0_1_1_n_n rfl none _ v0 r d).trans ?_
  refine Finset.sum_congr rfl fun p _ => ?_
  rw [shapeCast_1ab_ab_apply]

/-- Zero offsets, however spelt. -/
theorem zeros2 : (![0, 0] : Fin 2 → Nat) = fun _ => 0 := funext fun a => by fin_cases a <;> rfl

/-- A load of slab `k` of the patch block, read at `(0, p, r)`, is the block at `(k, p, r)`. -/
theorem ld_slab (x0 : Vec Ideal S32x8x128 .f32) (k : Nat) (hk : k < 32)
    (inb : ∀ a, (![k, 0, 0] : Fin 3 → Nat) a + S1x8x128.size a ≤ S32x8x128.size a) (p : Fin 8) (r : Fin 128) :
    View.ld x0 (Rect.unit (s := S32x8x128) ![k, 0, 0] S1x8x128.size inb) (ix3 (0 : Fin 1) p r) = x0 (ix3 (⟨k, hk⟩ : Fin 32) p r) := by
  show x0 _ = x0 _
  refine congrArg x0 (funext fun a => Fin.ext ?_)
  match a with
  | ⟨0, _⟩ => show k + 1 * 0 = k; omega
  | ⟨1, _⟩ => show 0 + 1 * p.val = p.val; omega
  | ⟨2, _⟩ => show 0 + 1 * r.val = r.val; omega

/-- Entry `(u, r, d)` of slab `k` of the output block sits at `(k, r, d)`. -/
theorem slab_emb (k : Nat) (hk : k < 32) (inb : ∀ a, (![k, 0, 0] : Fin 3 → Nat) a + S1x128x512.size a ≤ S32x128x512.size a)
    (u : Fin 1) (r : Fin 128) (d : Fin 512) :
    (Rect.unit (s := S32x128x512) ![k, 0, 0] S1x128x512.size inb).emb (ix3 u r d) = ix3 (⟨k, hk⟩ : Fin 32) r d := by
  funext a
  refine Fin.ext ?_
  match a with
  | ⟨0, _⟩ => show k + 1 * u.val = k; omega
  | ⟨1, _⟩ => show 0 + 1 * r.val = r.val; omega
  | ⟨2, _⟩ => show 0 + 1 * d.val = d.val; omega

/-- THE STORE OF SLAB `k` writes slab `k` of `blockFn`: its payload at a local index is `blockFn` at that index placed in
    the block. -/
theorem piece_eq (x0 : Vec Ideal S32x8x128 .f32) (x1 : Vec Ideal S8x512 .f32) (x2 : Vec Ideal S1x512 .f32) (x3 : Vec Ideal S128x512 .f32)
    (k : Nat) (hk : k < 32) (inbI : ∀ a, (![k, 0, 0] : Fin 3 → Nat) a + S1x8x128.size a ≤ S32x8x128.size a)
    (inbO : ∀ a, (![k, 0, 0] : Fin 3 → Nat) a + S1x128x512.size a ≤ S32x128x512.size a)
    (y : (Rect.unit (s := S32x128x512) ![k, 0, 0] S1x128x512.size inbO).shape.Idx) :
    k0_pay1 (F := Ideal) (View.ld x1 r0_0) (k0_pay2 (View.ld x3 r0_1) (View.ld x2 r0_2))
        (View.ld x0 (Rect.unit (s := S32x8x128) ![k, 0, 0] S1x8x128.size inbI)) y
      = blockFn x0 x1 x2 x3 ((Rect.unit (s := S32x128x512) ![k, 0, 0] S1x128x512.size inbO).emb y) := by
  obtain ⟨u, r, d, rfl⟩ : ∃ (u : Fin 1) (r : Fin 128) (d : Fin 512), y = ix3 u r d := ⟨y 0, y 1, y 2, eq_ix3 y⟩
  rw [slab_emb k hk inbO u r d]
  refine (slab_apply _ _ _ u r d).trans ?_
  rw [addend_apply, View.ld_unit_zero (S := S8x512) zeros2, View.ld_unit_zero (S := S128x512) zeros2,
    View.ld_unit_zero (S := S1x512) zeros2]
  show _ = (∑ p : Fin 8, x0 (ix3 (⟨k, hk⟩ : Fin 32) p r) * x1 (ix2 p d)) + (x3 (ix2 r d) + x2 (ix2 (0 : Fin 1) d))
  refine congrArg (· + (x3 (ix2 r d) + x2 (ix2 (0 : Fin 1) d))) (Finset.sum_congr rfl fun p _ => ?_)
  rw [ld_slab x0 k hk inbI p r]

/-- WHAT THE BODY LEAVES in the output block: the canon of its 32 stores is `blockFn` of the four input blocks. Each
    store's payload is the slab of `blockFn` its rectangle names (`piece_eq`), and the 32 slabs tile the block. -/
theorem out_eq (x0 : Vec Ideal S32x8x128 .f32) (x1 : Vec Ideal S8x512 .f32) (x2 : Vec Ideal S1x512 .f32) (x3 : Vec Ideal S128x512 .f32) :
    out0_4 (F := Ideal) x0 x1 x2 x3 = blockFn x0 x1 x2 x3 := by
  funext y
  unfold out0_4
  refine View.canon_apply_of_pieces (Val := Elt Ideal) (S := S32x128x512) (e := .f32) (blockFn x0 x1 x2 x3) _ ?_ y (cover0_4 _ _ _ _ _ _ _ _ _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals (intro x; exact piece_eq x0 x1 x2 x3 _ (by omega) (by decide) (by decide) x)

end Cert.KernelIdeal.Block

end
-- ==== Proof.Spec.lean ====
/-
  The function both programs compute, entry by entry, over the extended reals.

  A row of 1024 samples is cut into 128 patches of 8 consecutive samples: patch `r` of row `B` holds the samples at
  positions `8 r + p`, `p < 8`. Each patch is sent to 512 channels by the 8 × 512 matrix `w`, and to channel `d` of patch
  `r` are added the bias `b d` and entry `(r, d)` of the position table (of whose 256 rows only the first 128 are read):

      out (B, r, d) = (∑ p < 8, x (B, 8 r + p) · w (p, d)) + pos (r, d) + b d.

  The two programs bracket the three summands differently — one adds `pos (r, d) + b d` to the sum, the other adds `b d`
  first and `pos (r, d)` after — and addition of extended reals is commutative and associative without any finiteness
  assumption (`+∞ + -∞` is `-∞` in whichever order it is met), so the two arrangements are one function.
-/
import Idealize.ShloMosaic.Lib.ValueIdx

noncomputable section

open scoped BigOperators

namespace Cert.PatchEncoding

open Idealize.ShloMosaic Idealize.ShloMosaic.ValueIdx

/-- Position `8 r + p` of a row: sample `p` of patch `r`. -/
def slot (r : Fin 128) (p : Fin 8) : Fin 1024 := ⟨8 * r.val + p.val, by omega⟩

/-- Row `r` of the 256-row position table, for a patch number `r < 128`. -/
def tableRow (r : Fin 128) : Fin 256 := ⟨r.val, by omega⟩

/-- Patch `r` of row `B` sent to channel `d`. -/
def proj (x : FVec Ideal ⟨2, ![1024, 1024]⟩ .f32) (w : FVec Ideal ⟨2, ![8, 512]⟩ .f32) (B : Fin 1024) (r : Fin 128) (d : Fin 512) : EReal :=
  ∑ p : Fin 8, x (ix2 B (slot r p)) * w (ix2 p d)

/-- One entry, the position term and the bias added to each other first. -/
def cell (x : FVec Ideal ⟨2, ![1024, 1024]⟩ .f32) (w : FVec Ideal ⟨2, ![8, 512]⟩ .f32) (b : FVec Ideal ⟨1, ![512]⟩ .f32)
    (pos : FVec Ideal ⟨2, ![256, 512]⟩ .f32) (B : Fin 1024) (r : Fin 128) (d : Fin 512) : EReal :=
  proj x w B r d + (pos (ix2 (tableRow r) d) + b (ix1 d))

/-- One entry, the bias added to the projection first and the position term last. -/
def cellBiasFirst (x : FVec Ideal ⟨2, ![1024, 1024]⟩ .f32) (w : FVec Ideal ⟨2, ![8, 512]⟩ .f32) (b : FVec Ideal ⟨1, ![512]⟩ .f32)
    (pos : FVec Ideal ⟨2, ![256, 512]⟩ .f32) (B : Fin 1024) (r : Fin 128) (d : Fin 512) : EReal :=
  (proj x w B r d + b (ix1 d)) + pos (ix2 (tableRow r) d)

/-- The two bracketings agree: addition of extended reals is associative and commutative. -/
theorem cellBiasFirst_eq (x : FVec Ideal ⟨2, ![1024, 1024]⟩ .f32) (w : FVec Ideal ⟨2, ![8, 512]⟩ .f32) (b : FVec Ideal ⟨1, ![512]⟩ .f32)
    (pos : FVec Ideal ⟨2, ![256, 512]⟩ .f32) (B : Fin 1024) (r : Fin 128) (d : Fin 512) :
    cellBiasFirst x w b pos B r d = cell x w b pos B r d := by
  unfold cellBiasFirst cell
  rw [add_assoc, add_comm (b (ix1 d))]

/-- The whole result array, entry `(B, r, d)` at `cell … B r d`. -/
def encoded (x : FVec Ideal ⟨2, ![1024, 1024]⟩ .f32) (w : FVec Ideal ⟨2, ![8, 512]⟩ .f32) (b : FVec Ideal ⟨1, ![512]⟩ .f32)
    (pos : FVec Ideal ⟨2, ![256, 512]⟩ .f32) : FVec Ideal ⟨3, ![1024, 128, 512]⟩ .f32 :=
  fun j => cell x w b pos (j 0) (j 1) (j 2)

theorem encoded_apply (x : FVec Ideal ⟨2, ![1024, 1024]⟩ .f32) (w : FVec Ideal ⟨2, ![8, 512]⟩ .f32) (b : FVec Ideal ⟨1, ![512]⟩ .f32)
    (pos : FVec Ideal ⟨2, ![256, 512]⟩ .f32) (B : Fin 1024) (r : Fin 128) (d : Fin 512) :
    encoded x w b pos (ix3 B r d) = cell x w b pos B r d := rfl

end Cert.PatchEncoding

end
-- ==== Proof.KernelHost.lean ====
/-
  The arrays the kernel region finds, written by the three host operations before it.

  The `1024 × 1024` input is cut row by row into 128 patches of 8 samples (a reshape to `1024 × 128 × 8`) and each row's
  `128 × 8` table of patches is transposed: entry `(B, p, r)` of the `1024 × 8 × 128` array the region reads is sample `p` of
  patch `r` of row `B`, that is the input at `(B, 8 r + p)`. The bias vector is reshaped to a `1 × 512` row: its entry
  `(0, d)` is the bias at `d`. The matrix and the position table are argument arrays, which no host operation writes.
-/
import proofs.«128567_g67181878444427_cont_9to1c4b_463_22_alg».proof.Proof.Gen.KernelIdeal.Frame
import proofs.«128567_g67181878444427_cont_9to1c4b_463_22_alg».proof.Proof.Spec
import Idealize.ShloMosaic.Lib.StableHlo.Run
import Idealize.ShloMosaic.Lib.ValueLayout
import Idealize.ShloMosaic.Lib.Pipeline.Value

noncomputable section

namespace Cert.KernelIdeal.HostPrefix

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The transposed patches, as the two host operations compose them. -/
theorem patches_eq (c : Dev nD) :
    (V m c main_v1 : S1024x8x128.Idx → EReal)
      = transpose S1024x8x128 [0, 2, 1]
          (shapeCast S1024x128x8 (m ((c : Thread nD τ).loc main_arg0) : S1024x1024.Idx → EReal) shapeCasts_S1024x1024_S1024x128x8)
          transposes_S1024x128x8_S1024x8x128_0_2_1 := by
  dsimp only [Gen.V, Gen.hostOps0]
  after_results
  rfl

/-- Entry `(B, p, r)` of the transposed patches is the input at `(B, 8 r + p)`. -/
theorem patches_apply (c : Dev nD) (B : Fin 1024) (p : Fin 8) (r : Fin 128) :
    (V m c main_v1 : S1024x8x128.Idx → EReal) (ix3 B p r)
      = (m ((c : Thread nD τ).loc main_arg0) : S1024x1024.Idx → EReal) (ix2 B (Cert.PatchEncoding.slot r p)) := by
  refine (congrFun (patches_eq m c) _).trans ?_
  refine (transpose_ix3_021_apply _ _ B p r).trans ?_
  refine shapeCast_apply _ _ _ _ ?_
  show ((⟨2, ![1024, 1024]⟩ : Shape).rowMajor (ix2 B (Cert.PatchEncoding.slot r p))).val
    = ((⟨3, ![1024, 128, 8]⟩ : Shape).rowMajor (ix3 B r p)).val
  rw [Shape.rowMajor_val_two, Shape.rowMajor_val_three]
  show B.val * 1024 + (8 * r.val + p.val) = (B.val * 128 + r.val) * 8 + p.val
  omega

/-- The bias row, as the host's reshape writes it. -/
theorem biasRow_eq (c : Dev nD) :
    (V m c main_v2 : S1x512.Idx → EReal)
      = shapeCast S1x512 (m ((c : Thread nD τ).loc main_arg2) : S512.Idx → EReal) shapeCasts_S512_S1x512 := by
  dsimp only [Gen.V, Gen.hostOps0]
  after_results
  rfl

/-- Entry `(0, d)` of the bias row is the bias at `d`. -/
theorem biasRow_apply (c : Dev nD) (u : Fin 1) (d : Fin 512) :
    (V m c main_v2 : S1x512.Idx → EReal) (ix2 u d) = (m ((c : Thread nD τ).loc main_arg2) : S512.Idx → EReal) (ix1 d) := by
  refine (congrFun (biasRow_eq m c) _).trans ?_
  exact shapeCast_a_1a_apply _ _ u d

end Cert.KernelIdeal.HostPrefix

end
-- ==== Proof.KernelValue.lean ====
/-
  The kernel's result array as one function of the argument arrays.

  The grid has 32 points; point `t` reads rows `32 t … 32 t + 31` of the transposed patches (a `32 × 8 × 128` block), the whole
  matrix, the whole bias row and the first 128 rows of the position table (the same blocks at every point), and writes rows
  `32 t … 32 t + 31` of the `1024 × 128 × 512` result. What it writes is `blockFn` of its input blocks (Proof/KernelBlock.lean),
  and with the blocks read off the arrays the region finds (Proof/KernelHost.lean) entry `(b, r, d)` of the block is the
  encoding's entry `(32 t + b, r, d)` (Proof/Spec.lean). The 32 blocks of 32 rows cover the 1024 rows, so after the run the
  result array is the encoding of the four argument arrays.
-/
import proofs.«128567_g67181878444427_cont_9to1c4b_463_22_alg».proof.Proof.Gen.KernelIdeal.Value
import proofs.«128567_g67181878444427_cont_9to1c4b_463_22_alg».proof.Proof.KernelBlock
import proofs.«128567_g67181878444427_cont_9to1c4b_463_22_alg».proof.Proof.KernelHost
import proofs.«128567_g67181878444427_cont_9to1c4b_463_22_alg».proof.Proof.Spec

noncomputable section

open scoped BigOperators

namespace Cert.KernelIdeal.Whole

open Cert.KernelIdeal Cert.KernelIdeal.Gen Idealize.ShloMosaic Idealize.ShloMosaic.TcCoe Idealize.ShloMosaic.ValueIdx Idealize.SL.Sem
open Idealize.ShloMosaic.Pipeline (Dat)
open Cert.PatchEncoding

variable (m : (ℓ : Loc nD τ sig) → Buf (Elt Ideal) ℓ) (ρ : Dev nD → PrngReg)

/-- The encoding of the four argument arrays as launched on core `c`. -/
abbrev target (c : Dev nD) : S1024x128x512.Idx → EReal :=
  encoded (m ((c : Thread nD τ).loc main_arg0)) (m ((c : Thread nD τ).loc main_arg1)) (m ((c : Thread nD τ).loc main_arg2))
    (m ((c : Thread nD τ).loc main_arg3))

/-- The printed index maps over the grid: the patch block and the result block move with the point along axis 0, the other
    three windows stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Row `32 t + b` of the 1024, for a point `t` of the 32 and a row `b` of its block. -/
def rowOf (t : Fin cfg0.N) (b : Fin 32) : Fin 1024 := ⟨32 * t.val + b.val, by have := t.isLt; have hN : cfg0.N = 32 := N_0; omega⟩

/-- The patch block at point `t`, entry `(b, p, r)`: the input at `(32 t + b, 8 r + p)`. -/
theorem read_patches (c : Dev nD) (t : Fin cfg0.N) (b : Fin 32) (p : Fin 8) (r : Fin 128) :
    iblk m c 0 t (ix3 b p r) = (m ((c : Thread nD τ).loc main_arg0) : S1024x1024.Idx → EReal) (ix2 (rowOf t b) (slot r p)) := by
  refine Eq.trans ?_ (HostPrefix.patches_apply m c (rowOf t b) p r)
  show (V m c main_v1 : S1024x8x128.Idx → EReal) (((cfg0.win 0).blk t).view.emb (ix3 b p r)) = (V m c main_v1 : S1024x8x128.Idx → EReal) (ix3 (rowOf t b) p r)
  refine congrArg (V m c main_v1 : S1024x8x128.Idx → EReal) (funext fun a => Fin.ext ?_)
  obtain ⟨e0, e1, e2, -⟩ := idx_facts t
  match a with
  | ⟨0, _⟩ => show win0_0.index t (0 : Fin 3) * 32 + 1 * b.val = 32 * t.val + b.val; omega
  | ⟨1, _⟩ => show win0_0.index t (1 : Fin 3) * 8 + 1 * p.val = p.val; omega
  | ⟨2, _⟩ => show win0_0.index t (2 : Fin 3) * 128 + 1 * r.val = r.val; omega

/-- The matrix block at every point is the whole matrix. -/
theorem read_matrix (c : Dev nD) (t : Fin cfg0.N) (p : Fin 8) (d : Fin 512) :
    iblk m c 1 t (ix2 p d) = (m ((c : Thread nD τ).loc main_arg1) : S8x512.Idx → EReal) (ix2 p d) := by
  refine Eq.trans ?_ (congrFun (V_main_arg1 m c) (ix2 p d))
  show (V m c main_arg1 : S8x512.Idx → EReal) (((cfg0.win 1).blk t).view.emb (ix2 p d)) = (V m c main_arg1 : S8x512.Idx → EReal) (ix2 p d)
  refine congrArg (V m c main_arg1 : S8x512.Idx → EReal) (funext fun a => Fin.ext ?_)
  obtain ⟨-, -, -, e0, e1, -⟩ := idx_facts t
  match a with
  | ⟨0, _⟩ => show win0_1.index t (0 : Fin 2) * 8 + 1 * p.val = p.val; omega
  | ⟨1, _⟩ => show win0_1.index t (1 : Fin 2) * 512 + 1 * d.val = d.val; omega

/-- The bias block at every point is the whole bias row: entry `(u, d)` is the bias at `d`. -/
theorem read_bias (c : Dev nD) (t : Fin cfg0.N) (u : Fin 1) (d : Fin 512) :
    iblk m c 2 t (ix2 u d) = (m ((c : Thread nD τ).loc main_arg2) : S512.Idx → EReal) (ix1 d) := by
  refine Eq.trans ?_ (HostPrefix.biasRow_apply m c u d)
  show (V m c main_v2 : S1x512.Idx → EReal) (((cfg0.win 2).blk t).view.emb (ix2 u d)) = (V m c main_v2 : S1x512.Idx → EReal) (ix2 u d)
  refine congrArg (V m c main_v2 : S1x512.Idx → EReal) (funext fun a => Fin.ext ?_)
  obtain ⟨-, -, -, -, -, e0, e1, -⟩ := idx_facts t
  match a with
  | ⟨0, _⟩ => show win0_2.index t (0 : Fin 2) * 1 + 1 * u.val = u.val; omega
  | ⟨1, _⟩ => show win0_2.index t (1 : Fin 2) * 512 + 1 * d.val = d.val; omega

/-- The position block at every point is the table's first 128 rows. -/
theorem read_table (c : Dev nD) (t : Fin cfg0.N) (r : Fin 128) (d : Fin 512) :
    iblk m c 3 t (ix2 r d) = (m ((c : Thread nD τ).loc main_arg3) : S256x512.Idx → EReal) (ix2 (tableRow r) d) := by
  refine Eq.trans ?_ (congrFun (V_main_arg3 m c) (ix2 (tableRow r) d))
  show (V m c main_arg3 : S256x512.Idx → EReal) (((cfg0.win 3).blk t).view.emb (ix2 r d)) = (V m c main_arg3 : S256x512.Idx → EReal) (ix2 (tableRow r) d)
  refine congrArg (V m c main_arg3 : S256x512.Idx → EReal) (funext fun a => Fin.ext ?_)
  obtain ⟨-, -, -, -, -, -, -, e0, e1, -⟩ := idx_facts t
  match a with
  | ⟨0, _⟩ => show win0_3.index t (0 : Fin 2) * 128 + 1 * r.val = r.val; omega
  | ⟨1, _⟩ => show win0_3.index t (1 : Fin 2) * 512 + 1 * d.val = d.val; omega

/-- Entry `(b, r, d)` of the result block at point `t` sits at `(32 t + b, r, d)` of the result array. -/
theorem result_emb (t : Fin cfg0.N) (b : Fin 32) (r : Fin 128) (d : Fin 512) :
    ((cfg0.win 4).blk t).view.emb (ix3 b r d) = (ix3 (rowOf t b) r d : S1024x128x512.Idx) := by
  funext a
  refine Fin.ext ?_
  obtain ⟨-, -, -, -, -, -, -, -, -, e0, e1, e2⟩ := idx_facts t
  match a with
  | ⟨0, _⟩ => show win0_4.index t (0 : Fin 3) * 32 + 1 * b.val = 32 * t.val + b.val; omega
  | ⟨1, _⟩ => show win0_4.index t (1 : Fin 3) * 128 + 1 * r.val = r.val; omega
  | ⟨2, _⟩ => show win0_4.index t (2 : Fin 3) * 512 + 1 * d.val = d.val; omega

/-- One entry of a block against one entry of the encoding, over any blocks and arrays: if the patch slab's row `b` reads row `B` of
    the input, the matrix block reads the matrix, the bias row reads the bias and the position block reads the table's row `r`, then
    the block function at `(b, r, d)` is the encoding's cell `(B, r, d)`. -/
theorem blockFn_eq_cell (x0 : Vec Ideal S32x8x128 .f32) (x1 : Vec Ideal S8x512 .f32) (x2 : Vec Ideal S1x512 .f32) (x3 : Vec Ideal S128x512 .f32)
    (A0 : FVec Ideal ⟨2, ![1024, 1024]⟩ .f32) (A1 : FVec Ideal ⟨2, ![8, 512]⟩ .f32) (A2 : FVec Ideal ⟨1, ![512]⟩ .f32) (A3 : FVec Ideal ⟨2, ![256, 512]⟩ .f32)
    (B : Fin 1024) (b : Fin 32) (r : Fin 128) (d : Fin 512)
    (h0 : ∀ p : Fin 8, x0 (ix3 b p r) = A0 (ix2 B (slot r p))) (h1 : ∀ p : Fin 8, x1 (ix2 p d) = A1 (ix2 p d))
    (h2 : x2 (ix2 (0 : Fin 1) d) = A2 (ix1 d)) (h3 : x3 (ix2 r d) = A3 (ix2 (tableRow r) d)) :
    Block.blockFn x0 x1 x2 x3 (ix3 b r d) = cell A0 A1 A2 A3 B r d := by
  show (∑ p : Fin 8, x0 (ix3 b p r) * x1 (ix2 p d)) + (x3 (ix2 r d) + x2 (ix2 (0 : Fin 1) d)) = _
  unfold cell proj
  rw [h2, h3]
  refine congrArg (· + _) (Finset.sum_congr rfl fun p _ => ?_)
  rw [h0 p, h1 p]

/-- WHAT POINT `t` WRITES BACK is block `t` of the encoding of the argument arrays. -/
theorem flushed_eq (c : Dev nD) (t : Fin cfg0.N) :
    (dats m 0 c).flushed 4 t = ((cfg0.win 4).blk t).view.read (Elt Ideal) (target m c) := by
  rw [Value.flushed4, Block.out_eq]
  funext y
  obtain ⟨b, r, d, rfl⟩ : ∃ (b : Fin 32) (r : Fin 128) (d : Fin 512), y = ix3 b r d := ⟨y 0, y 1, y 2, eq_ix3 y⟩
  show Block.blockFn (iblk m c 0 t) (iblk m c 1 t) (iblk m c 2 t) (iblk m c 3 t) (ix3 b r d)
    = target m c (((cfg0.win 4).blk t).view.emb (ix3 b r d))
  rw [result_emb t b r d]
  exact blockFn_eq_cell (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) (rowOf t b) b r d
    (fun p => read_patches m c t b p r) (fun p => read_matrix m c t p d) (read_bias m c t 0 d) (read_table m c t r d)

/-- An index of the result array is in point `t`'s block iff each coordinate is in the block's range on its axis. -/
theorem mem_blk (t : Fin cfg0.N) (i : S1024x128x512.Idx) :
    i ∈ ((cfg0.win 4).blk t).view.set ↔ ∀ a : Fin 3, win0_4.index t a * S32x128x512.size a ≤ (i a).val ∧ (i a).val < win0_4.index t a * S32x128x512.size a + S32x128x512.size a := by
  show i ∈ ((View.whole main_v3).slice (win0_4.rect t)).set ↔ _
  rw [View.set_slice_whole, Rect.mem_set_unit]
  exact Iff.rfl

/-- Every index of the result array is in some point's block: row `B` is in block `B / 32`. -/
theorem cover (i : S1024x128x512.Idx) : ∃ t : Fin cfg0.N, (cfg0.win 4).flush t = true ∧ i ∈ ((cfg0.win 4).blk t).view.set := by
  have hi0 : (i 0).val < 1024 := (i 0).isLt
  have hi1 : (i 1).val < 128 := (i 1).isLt
  have hi2 : (i 2).val < 512 := (i 2).isLt
  have hN : cfg0.N = 32 := N_0
  refine ⟨⟨(i 0).val / 32, by omega⟩, flush0_4 _, ?_⟩
  rw [mem_blk]
  obtain ⟨-, -, -, -, -, -, -, -, -, e0, e1, e2⟩ := idx_facts ⟨(i 0).val / 32, by omega⟩
  intro a
  match a with
  | ⟨0, _⟩ =>
    show win0_4.index ⟨(i 0).val / 32, _⟩ (0 : Fin 3) * 32 ≤ (i 0).val ∧ (i 0).val < win0_4.index ⟨(i 0).val / 32, _⟩ (0 : Fin 3) * 32 + 32
    rw [e0]; show (i 0).val / 32 * 32 ≤ (i 0).val ∧ (i 0).val < (i 0).val / 32 * 32 + 32; omega
  | ⟨1, _⟩ =>
    show win0_4.index ⟨(i 0).val / 32, _⟩ (1 : Fin 3) * 128 ≤ (i 1).val ∧ (i 1).val < win0_4.index ⟨(i 0).val / 32, _⟩ (1 : Fin 3) * 128 + 128
    rw [e1]; omega
  | ⟨2, _⟩ =>
    show win0_4.index ⟨(i 0).val / 32, _⟩ (2 : Fin 3) * 512 ≤ (i 2).val ∧ (i 2).val < win0_4.index ⟨(i 0).val / 32, _⟩ (2 : Fin 3) * 512 + 512
    rw [e2]; omega

/-- THE RESULT ARRAY after the run is the encoding of the argument arrays. -/
theorem final (c : Dev nD) : (dats m 0 c).arrAt 4 cfg0.N = target m c :=
  (dats m 0 c).arrAt_eq_of_cover 4 (target m c) (fun t _ => flushed_eq m c t) cover

/-- The kernel's run: the result array ends at the encoding of the argument arrays, which end unchanged. -/
theorem run : θ_run defs (onTc (τ := τ) (main (F := Ideal))) ⟨m, fun _ => 0, ρ⟩ fun r => ∀ c : Dev nD,
      r.2.mem ((c : Thread nD τ).loc main_v3) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefRun.lean ====
/-
  The reference function's run, written out operation by operation.

  The reference reshapes the rows into patches, contracts each patch with the projection matrix, adds the bias, takes
  rows `0 … 127` of the position table through the index-taking helper (whose body first wraps negative indices, then
  gathers the rows, then masks rows whose index was out of range), and adds them. The helper is a function called from
  the main function, and the helper itself calls a one-line selection function; unfolding the two calls at their
  argument and result buffers gives one straight line of 32 operations. Every execution of that line terminates with
  each buffer at the value the operations compute from the four argument arrays, which are left unchanged.
-/
import proofs.«128567_g67181878444427_cont_9to1c4b_463_22_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The main function's 32 operations in order, the two calls unfolded at their buffers: six of its own (the reshape,
    the contraction, the bias broadcast twice and added, the row numbers `0 … 127`), the index-taking helper's
    twenty-three (the seventh of them the selection function's one), then the position rows broadcast twice and added. -/
abbrev ops : List (HloOp τ sig (Elt F)) :=
  [ reshape main_arg0 main_v0 rfl shapeCasts_S1024x1024_S1024x128x8,
    binary main_v0 main_arg1 main_v1 ((fun l r => Host.dotGeneral dot_S1024x128x8_S8x512_S1024x128x512_2_0_01_1_n_n none l r) : (⟨S1024x128x8, .f32⟩ : BufTy).Contents (Elt F) → (⟨S8x512, .f32⟩ : BufTy).Contents (Elt F) → (⟨S1024x128x512, .f32⟩ : BufTy).Contents (Elt F)),
    unary main_arg2 main_v2 (broadcastInDim S1x1x512 ![2] bcast_S512_S1x1x512_2 : (⟨S512, .f32⟩ : BufTy).Contents (Elt F) → (⟨S1x1x512, .f32⟩ : BufTy).Contents (Elt F)),
    unary main_v2 main_v3 (broadcastInDim S1024x128x512 ![0, 1, 2] bcast_S1x1x512_S1024x128x512_0_1_2 : (⟨S1x1x512, .f32⟩ : BufTy).Contents (Elt F) → (⟨S1024x128x512, .f32⟩ : BufTy).Contents (Elt F)),
    binary main_v1 main_v3 main_v4 (addf : (⟨S1024x128x512, .f32⟩ : BufTy).Contents (Elt F) → (⟨S1024x128x512, .f32⟩ : BufTy).Contents (Elt F) → (⟨S1024x128x512, .f32⟩ : BufTy).Contents (Elt F)),
    nullary main_v5 (iotaInDim S128 32 0),
    TRef.nullary main_call0.c (constantI S_ 32 0#32),
    TRef.unary main_call0.c main_call0.v0 (broadcastInDim S128 ![] bcast_S_S128),
    TRef.binary (.of main_v5) main_call0.v0 main_call0.v1 (cmpi .slt),
    TRef.nullary main_call0.c_0 (constantI S_ 32 256#32),
    TRef.unary main_call0.c_0 main_call0.v2 (broadcastInDim S128 ![] bcast_S_S128),
    TRef.binary (.of main_v5) main_call0.v2 main_call0.v3 addi,
    TRef.ternary main_call0.v1 main_call0.v3 (.of main_v5) main_call0.call0.v0 select,
    TRef.unary main_call0.call0.v0 main_call0.v5 (broadcastInDim S128x1 ![0] bcast_S128_S128x1_0),
    TRef.nullary main_call0.c_1 (constantI S1 32 255#32),
    TRef.nullary main_call0.c_2 (constantI S_ 32 0#32),
    TRef.unary main_call0.c_2 main_call0.v6 (broadcastInDim S128x1 ![] bcast_S_S128x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S128x1 ![0, 1] bcast_S1x1_S128x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S128x1_S128_d1 h_S_),
    TRef.binary (.of main_arg3) main_call0.v5 main_call0.v13 (fun x i => Host.gather gather_S256x512_S128x1_S128x512_1_0_n_n_0_1_1512 x i),
    TRef.unary main_call0.v12 main_call0.v14 (broadcastInDim S128x512 ![0] bcast_S128_S128x512_0),
    TRef.nullary main_call0.cst (constant S_ .f32 0x7FC00000#32),
    TRef.unary main_call0.cst main_call0.v15 (broadcastInDim S128x512 ![] bcast_S_S128x512),
    TRef.ternary main_call0.v14 main_call0.v13 main_call0.v15 main_call0.v16 select,
    unary main_v6 main_v7 (broadcastInDim S1x128x512 ![1, 2] bcast_S128x512_S1x128x512_1_2 : (⟨S128x512, .f32⟩ : BufTy).Contents (Elt F) → (⟨S1x128x512, .f32⟩ : BufTy).Contents (Elt F)),
    unary main_v7 main_v8 (broadcastInDim S1024x128x512 ![0, 1, 2] bcast_S1x128x512_S1024x128x512_0_1_2 : (⟨S1x128x512, .f32⟩ : BufTy).Contents (Elt F) → (⟨S1024x128x512, .f32⟩ : BufTy).Contents (Elt F)),
    binary main_v4 main_v8 main_v9 (addf : (⟨S1024x128x512, .f32⟩ : BufTy).Contents (Elt F) → (⟨S1024x128x512, .f32⟩ : BufTy).Contents (Elt F) → (⟨S1024x128x512, .f32⟩ : BufTy).Contents (Elt F)) ]

set_option maxRecDepth 1024 in
/-- The main function is that straight line: the two functions' definitions unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., binary_bufs_sub .., unary_bufs_sub .., unary_bufs_sub .., binary_bufs_sub .., nullary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub ..⟩

/-! ## What the line computes

The value the last operation writes, as a function of the four argument arrays, in four pieces: the column of start
indices the helper builds from the row numbers, its in-range mask, the rows it returns, and the whole result. -/

/-- The start indices the helper gathers at: the row numbers `0 … 127` as 32-bit words, an index below zero replaced by
    itself plus 256 (the table's row count), laid out as a `[128, 1]` column. -/
def takeColumn : IVec S128x1 32 :=
  broadcastInDim S128x1 ![0] bcast_S128_S128x1_0
    (select (cmpi .slt (iotaInDim S128 32 0) (broadcastInDim S128 ![] bcast_S_S128 (constantI S_ 32 0#32)))
      (addi (iotaInDim S128 32 0) (broadcastInDim S128 ![] bcast_S_S128 (constantI S_ 32 256#32)))
      (iotaInDim S128 32 0))

/-- The helper's mask: for each start index, whether it lies in `[0, 255]` — the two comparisons' conjunction, reduced
    by `and` over the column's one-entry axis. -/
def takeMask : IVec S128 1 :=
  Host.reduce IntOp.andi
    (andi (cmpi .sge takeColumn (broadcastInDim S128x1 ![] bcast_S_S128x1 (constantI S_ 32 0#32)))
      (cmpi .sle takeColumn
        (broadcastInDim S128x1 ![0, 1] bcast_S1x1_S128x1_0_1 (broadcastInDim S1x1 ![1] bcast_S1_S1x1_1 (constantI S1 32 255#32)))))
    (constantI S_ 1 1#1) reducesTo_S128x1_S128_d1 h_S_

/-- The rows the helper returns: the table gathered at the start indices where the mask holds, the fill constant
    elsewhere. -/
def takeRows (pos : FVec F S256x512 .f32) : FVec F S128x512 .f32 :=
  select (broadcastInDim S128x512 ![0] bcast_S128_S128x512_0 takeMask)
    (Host.gather gather_S256x512_S128x1_S128x512_1_0_n_n_0_1_1512 pos takeColumn)
    (broadcastInDim S128x512 ![] bcast_S_S128x512 (constant S_ .f32 0x7FC00000#32))

/-- The result: the patches contracted with the projection matrix, plus the bias broadcast over rows and patches, plus
    the helper's rows broadcast over the rows. -/
def out (x : FVec F S1024x1024 .f32) (w : FVec F S8x512 .f32) (b : FVec F S512 .f32) (pos : FVec F S256x512 .f32) :
    FVec F S1024x128x512 .f32 :=
  addf
    (addf
      (Host.dotGeneral dot_S1024x128x8_S8x512_S1024x128x512_2_0_01_1_n_n none
        (shapeCast S1024x128x8 x shapeCasts_S1024x1024_S1024x128x8) w)
      (broadcastInDim S1024x128x512 ![0, 1, 2] bcast_S1x1x512_S1024x128x512_0_1_2
        (broadcastInDim S1x1x512 ![2] bcast_S512_S1x1x512_2 b)))
    (broadcastInDim S1024x128x512 ![0, 1, 2] bcast_S1x128x512_S1024x128x512_0_1_2
      (broadcastInDim S1x128x512 ![1, 2] bcast_S128x512_S1x128x512_1_2 (takeRows pos)))

attribute [local irreducible] Host.reduce Host.gather in
set_option maxRecDepth 8192 in
/-- The fold of the 32 operations at the result buffer is `out` of the argument buffers' contents: each operation's
    result read at its own buffer is its function of its operands' contents, and at another buffer what was there. -/
theorem out_eq (V : Valuation τ sig (Elt F)) :
    after ops V (main_v9 : DevRef τ sig)
      = out (V (main_arg0 : DevRef τ sig)) (V (main_arg1 : DevRef τ sig)) (V (main_arg2 : DevRef τ sig))
          (V (main_arg3 : DevRef τ sig)) := by
  after_results_simp
  rfl

/-- No operation writes the first argument … -/
theorem arg0_eq (V : Valuation τ sig (Elt F)) :
    after ops V (main_arg0 : DevRef τ sig) = V (main_arg0 : DevRef τ sig) := by
  after_results_simp
/-- … nor the second … -/
theorem arg1_eq (V : Valuation τ sig (Elt F)) :
    after ops V (main_arg1 : DevRef τ sig) = V (main_arg1 : DevRef τ sig) := by
  after_results_simp
/-- … nor the third … -/
theorem arg2_eq (V : Valuation τ sig (Elt F)) :
    after ops V (main_arg2 : DevRef τ sig) = V (main_arg2 : DevRef τ sig) := by
  after_results_simp
/-- … nor the fourth. -/
theorem arg3_eq (V : Valuation τ sig (Elt F)) :
    after ops V (main_arg3 : DevRef τ sig) = V (main_arg3 : DevRef τ sig) := by
  after_results_simp

/-- Every weakly fair execution of the main function terminates, and every final state has each buffer at the fold of
    the 32 operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- On every device, for any float values, from any memory with zero counters: every weakly fair execution of the main
    function terminates with the result buffer at `out` of the four arguments' launch contents and the arguments
    unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v9).trans (out_eq _), (h c main_arg0).trans (arg0_eq _),
      (h c main_arg1).trans (arg1_eq _), (h c main_arg2).trans (arg2_eq _), (h c main_arg3).trans (arg3_eq _)⟩)
    (run_main m ρ)

end Cert.ReferenceIdeal.RefValue

end
-- ==== Proof.LibRowGather.lean ====
/-
  A general lemma about `stablehlo.gather`: rows of a table taken at a column of start indices.

  For a table `x : [N, D]` and a column `idx : [E, 1]` of integer start indices, the gather with offset_dims `[1]`,
  collapsed_slice_dims `[0]`, start_index_map `[0]`, index_vector_dim `1` and slice_sizes `[1, D]` — what `take(x, idx, axis = 0)`
  of a two-dimensional table lowers to — has result `[E, D]`, and its entry `(e, d)` is the table's entry `(i, d)`, where `i` is
  the start index `idx (e, 0)` read as a signed integer and clamped into `[0, N - 1]`: a whole row of the table per start index.
-/
import Idealize.ShloMosaic.Lib.ValueIdx

noncomputable section

namespace Idealize.ShloMosaic.RowGather

open Idealize.ShloMosaic Idealize.ShloMosaic.ValueIdx

variable {α : Type}

/-- Those dimension numbers for a table `[N, D]`, start indices `[E, 1]` and result `[E, D]`; their conditions `wf` are
    decided on a program's literal shapes. -/
abbrev rowDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE GATHER READ AT `(e, d)`: the table at row `idx (e, 0)`, read signed and clamped into `[0, N - 1]`, and column `d`. -/
theorem gather_row_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N E D wf) x idx (ix2 e d)
      = x (ix2 ⟨min (idx (ix2 e (0 : Fin 1))).toInt.toNat (N - 1), by omega⟩ d) := by
  unfold Host.gather
  congr 1
  funext a
  refine Fin.ext ?_
  show (rowDims N E D wf).start (ix2 e d) idx a + (rowDims N E D wf).batchCoord (ix2 e d) a
    + (rowDims N E D wf).offCoord (ix2 e d) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N E D wf).startIndexMap from List.mem_singleton.mpr rfl)]
    have hsi : (rowDims N E D wf).siIdx (ix2 e d) ⟨List.idxOf (⟨0, by omega⟩ : Fin 2) (rowDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    have h1 : (⟨1, by omega⟩ : Fin 2) ∉ (rowDims N E D wf).startIndexMap :=
      fun h => Nat.one_ne_zero (congrArg Fin.val (List.mem_singleton.mp h))
    have hs : (rowDims N E D wf).start (ix2 e d) idx ⟨1, by omega⟩ = 0 := by
      unfold GatherDims.start; rw [dif_neg h1]
    rw [hs]
    have hk : (⟨1, by omega⟩ : Fin 2) ∈ (rowDims N E D wf).sKept :=
      (GatherDims.mem_sKept _ _).mpr
        ⟨fun h => Nat.one_ne_zero (congrArg Fin.val (List.mem_singleton.mp h)), List.not_mem_nil⟩
    unfold GatherDims.offCoord
    rw [dif_pos hk]
    simp only [Nat.zero_add]
    rfl

end Idealize.ShloMosaic.RowGather

end
-- ==== Proof.LibReduceAnd.lean ====
/-
  A general lemma about `stablehlo.reduce` with `and` on one-bit words: a conjunction of ones is one.

  A reduce by `and` runs, at each result index, a left fold from the initial value over the operand's entries that
  reduce into that index. If the initial value is 1 and every entry of the operand is 1, every step of the fold is
  `1 and 1 = 1`, so the result is 1 at every index — whatever the axes reduced over.
-/
import Idealize.ShloMosaic.Lib.Affine
import Idealize.ShloMosaic.PureOps.Reduce

namespace Idealize.ShloMosaic.ReduceAnd

open Idealize.ShloMosaic

/-- A left fold by `and` from 1 over one-bit words that are all 1 is 1. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_of_all_one f l fun n hn => h n (List.mem_cons_of_mem a hn)

variable {s t u : Shape} {axes : List (Fin s.rank)}

/-- A `stablehlo.reduce` by `and` from the initial value 1 of an operand whose entries are all 1 is 1 at every
    result index. -/
theorem reduce_andi_of_all_one (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl, hinit]
  exact foldl_andi_of_all_one x _ fun i _ => hx i

end Idealize.ShloMosaic.ReduceAnd
-- ==== Proof.RefRead.lean ====
/-
  The reference's result read entry by entry, over the extended reals.

  `out x w b pos` is what the reference's 32 operations compute from the four argument arrays. Read at entry
  `(B, r, d)`:
  * the reshape of the rows into patches puts sample `8 r + p` of row `B` at `(B, r, p)` (both are position
    `1024 B + 8 r + p` in row-major order), so the contraction with the projection matrix is
    `∑ p < 8, x (B, 8 r + p) · w (p, d)`;
  * the bias, broadcast twice, is `b d`;
  * the helper's start index for patch `r` is the word `r`: it is not negative, so it is kept as it is; it lies in
    `[0, 255]`, so the mask holds; read signed and clamped to `[0, 255]` it is `r` again, so the gathered row is row `r` of
    the position table, and the select keeps it.
  Hence the entry is `(∑ p, x (B, 8 r + p) · w (p, d) + b d) + pos (r, d)`, and the whole array is `encoded x w b pos`.
-/
import proofs.«128567_g67181878444427_cont_9to1c4b_463_22_alg».proof.Proof.RefRun
import proofs.«128567_g67181878444427_cont_9to1c4b_463_22_alg».proof.Proof.Spec
import proofs.«128567_g67181878444427_cont_9to1c4b_463_22_alg».proof.Proof.LibRowGather
import proofs.«128567_g67181878444427_cont_9to1c4b_463_22_alg».proof.Proof.LibReduceAnd
import Idealize.ShloMosaic.Lib.IdealHost
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Cert.PatchEncoding

/-! ## Words -/

/-- A number below `2 ^ 31` written as a 32-bit word reads back, as a signed integer, as itself. -/
theorem toInt_ofNat_lt (n : Nat) (h : n < 2147483648) : (BitVec.ofNat 32 n).toInt = (n : Int) := by
  have e := BitVec.toInt_eq_toNat_cond (BitVec.ofNat 32 n)
  rw [BitVec.toNat_ofNat] at e
  omega

/-! ## The helper's start indices, mask and rows -/

section Take
variable {F : FTy → Type} [FloatOps F]

/-- The start index for patch `r` is the word `r`: `r` is not below zero, so the wrap-around leaves it. -/
theorem takeColumn_apply (r : Fin 128) (u : Fin 1) : takeColumn (ix2 r u) = BitVec.ofNat 32 r.val := by
  have hr := r.isLt
  unfold takeColumn
  refine (broadcastInDim_apply _ _ _ (ix2 r u) (ix1 r) (fun a => match a with | ⟨0, _⟩ => rfl)).trans ?_
  rw [select_apply]
  have hc : cmpi .slt (iotaInDim S128 32 0) (broadcastInDim S128 ![] bcast_S_S128 (constantI S_ 32 0#32)) (ix1 r) = 0#1 := by
    refine eq_zero_of_ne_one fun h => ?_
    have h' : (BitVec.ofNat 32 r.val).toInt < (BitVec.ofNat 32 0).toInt := IntOp.cmpi_slt.1 h
    rw [toInt_ofNat_lt r.val (by omega), toInt_ofNat_lt 0 (by omega)] at h'
    omega
  rw [hc, select_zero]
  rfl

/-- Every start index lies in `[0, 255]`, so the mask holds at every patch. -/
theorem takeMask_apply (r : Fin 128) : takeMask (ix1 r) = 1#1 := by
  unfold takeMask
  refine ReduceAnd.reduce_andi_of_all_one _ _ _ _ rfl (fun i => ?_) _
  obtain ⟨a, u, rfl⟩ : ∃ a u, i = ix2 a u := ⟨i 0, i 1, eq_ix2 i⟩
  have ha := a.isLt
  show IntOp.andi (IntOp.cmpi .sge (takeColumn (ix2 a u)) (BitVec.ofNat 32 0))
    (IntOp.cmpi .sle (takeColumn (ix2 a u)) (BitVec.ofNat 32 255)) = 1#1
  rw [takeColumn_apply]
  refine IntOp.andi_eq_one.2 ⟨IntOp.cmpi_sge.2 ?_, IntOp.cmpi_sle.2 ?_⟩
  · rw [toInt_ofNat_lt a.val (by omega), toInt_ofNat_lt 0 (by omega)]; omega
  · rw [toInt_ofNat_lt a.val (by omega), toInt_ofNat_lt 255 (by omega)]; omega

/-- The helper's row for patch `r` is row `r` of the position table. -/
theorem takeRows_apply (pos : FVec F S256x512 .f32) (r : Fin 128) (d : Fin 512) :
    takeRows pos (ix2 r d) = pos (ix2 (tableRow r) d) := by
  have hr := r.isLt
  unfold takeRows
  rw [select_apply]
  have hm : broadcastInDim S128x512 ![0] bcast_S128_S128x512_0 takeMask (ix2 r d) = 1#1 :=
    (broadcastInDim_apply _ _ _ (ix2 r d) (ix1 r) (fun a => match a with | ⟨0, _⟩ => rfl)).trans (takeMask_apply r)
  rw [hm, select_one]
  refine (RowGather.gather_row_apply (N := 256) (E := 128) (D := 512) (by decide)
    gather_S256x512_S128x1_S128x512_1_0_n_n_0_1_1512_wf pos takeColumn r d).trans ?_
  refine congrArg pos (congrArg (fun a => ix2 a d) (Fin.ext ?_))
  show min (takeColumn (ix2 r (0 : Fin 1))).toInt.toNat (256 - 1) = r.val
  rw [takeColumn_apply, toInt_ofNat_lt r.val (by omega)]
  omega

end Take

/-! ## The contraction -/

/-- The contraction's dimension numbers as a literal record: the patches' axis 2 against the matrix's axis 0, no batch
    axis. -/
private abbrev projDims : DotDims S1024x128x8 S8x512 S1024x128x512 :=
  ⟨[2], [0], [0, 1], [1], [], [], dot_S1024x128x8_S8x512_S1024x128x512_2_0_01_1_n_n_wf⟩

/-- The contraction of the reshaped rows with the projection matrix, at `(B, r, d)`: the sum over the eight samples of
    patch `r` of row `B`. -/
theorem proj_apply (x : FVec Ideal S1024x1024 .f32) (w : FVec Ideal S8x512 .f32) (B : Fin 1024) (r : Fin 128) (d : Fin 512) :
    Host.dotGeneral (F := Ideal) dot_S1024x128x8_S8x512_S1024x128x512_2_0_01_1_n_n none
        (shapeCast S1024x128x8 x shapeCasts_S1024x1024_S1024x128x8) w (ix3 B r d)
      = proj x w B r d := by
  have hB := B.isLt
  have hr := r.isLt
  show FloatOps.dotGeneral projDims none .single (shapeCast S1024x128x8 x shapeCasts_S1024x1024_S1024x128x8) w (ix3 B r d) = _
  rw [Ideal.dotGeneral_apply, ← Equiv.sum_comp (contrEquiv1 projDims 8 rfl rfl).symm]
  unfold proj
  refine Finset.sum_congr rfl fun p _ => ?_
  have hp := p.isLt
  have c := contrEquiv1_symm_val projDims 8 rfl rfl p
  have l : projDims.lhsIdx (ix3 B r d) ((contrEquiv1 projDims 8 rfl rfl).symm p) = ix3 B r p := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c
  have rr : projDims.rhsIdx (ix3 B r d) ((contrEquiv1 projDims 8 rfl rfl).symm p) = ix2 p d := by
    funext ax; apply Fin.ext
    match ax with
    | ⟨0, _⟩ => simp [DotDims.rhsIdx]; exact c
    | ⟨1, _⟩ => simp [DotDims.rhsIdx]; rfl
  rw [l, rr]
  refine congrArg (· * w (ix2 p d)) ?_
  exact shapeCast_apply x _ (ix3 B r p) (ix2 B (slot r p)) (by
    rw [Shape.rowMajor_val_two, Shape.rowMajor_val_three]
    show B.val * 1024 + (8 * r.val + p.val) = (B.val * 128 + r.val) * 8 + p.val
    omega)

/-! ## The result -/

/-- Entry `(B, r, d)` of the reference's result: the projection of patch `r` of row `B` to channel `d`, plus the bias,
    plus the position term. -/
theorem out_apply (x : FVec Ideal S1024x1024 .f32) (w : FVec Ideal S8x512 .f32) (b : FVec Ideal S512 .f32)
    (pos : FVec Ideal S256x512 .f32) (B : Fin 1024) (r : Fin 128) (d : Fin 512) :
    out x w b pos (ix3 B r d) = cellBiasFirst x w b pos B r d := by
  unfold out cellBiasFirst
  rw [addf_apply, addf_apply]
  refine congrArg₂ (· + ·) (congrArg₂ (· + ·) (proj_apply x w B r d) ?_) ?_
  · refine (broadcastInDim_apply _ _ _ (ix3 B r d) (ix3 (0 : Fin 1) (0 : Fin 1) d)
      (fun a => match a with | ⟨0, _⟩ => rfl | ⟨1, _⟩ => rfl | ⟨2, _⟩ => rfl)).trans ?_
    exact broadcastInDim_apply _ _ _ (ix3 (0 : Fin 1) (0 : Fin 1) d) (ix1 d) (fun a => match a with | ⟨0, _⟩ => rfl)
  · refine (broadcastInDim_apply _ _ _ (ix3 B r d) (ix3 (0 : Fin 1) r d)
      (fun a => match a with | ⟨0, _⟩ => rfl | ⟨1, _⟩ => rfl | ⟨2, _⟩ => rfl)).trans ?_
    refine (broadcastInDim_apply _ _ _ (ix3 (0 : Fin 1) r d) (ix2 r d)
      (fun a => match a with | ⟨0, _⟩ => rfl | ⟨1, _⟩ => rfl)).trans ?_
    exact takeRows_apply pos r d

/-- The reference's result is the encoded array: entry by entry the two bracketings of the three summands agree. -/
theorem out_eq_encoded (x : FVec Ideal S1024x1024 .f32) (w : FVec Ideal S8x512 .f32) (b : FVec Ideal S512 .f32)
    (pos : FVec Ideal S256x512 .f32) : out x w b pos = encoded x w b pos := by
  funext j
  have e : j = ix3 (n0 := 1024) (n1 := 128) (n2 := 512) (j 0) (j 1) (j 2) := eq_ix3 j
  exact (congrArg (out x w b pos) e).trans
    ((out_apply x w b pos (j 0) (j 1) (j 2)).trans (cellBiasFirst_eq x w b pos (j 0) (j 1) (j 2)))

end Cert.ReferenceIdeal.RefValue

end
-- ==== Proof.RefFinal.lean ====
/-
  The reference's run, stated over the function both programs compute.

  Every execution of the reference terminates with its result buffer at `out` of the four argument arrays
  (the operations' composed value), and over the extended reals `out` is `Cert.PatchEncoding.encoded`: entry
  `(B, r, d)` is `(∑ p < 8, x (B, 8 r + p) · w (p, d)) + pos (r, d) + b d`. The arguments are left unchanged.
-/
import proofs.«128567_g67181878444427_cont_9to1c4b_463_22_alg».proof.Proof.RefRead

noncomputable section

namespace Cert.ReferenceIdeal.RefValue

open Cert.ReferenceIdeal Idealize.ShloMosaic Idealize.ShloMosaic.TcCoe Idealize.SL.Sem

/-- On every device, over the extended reals, from any memory with zero counters: every weakly fair execution of the
    reference terminates with the result buffer at the encoded array of the four arguments' launch contents, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = Cert.PatchEncoding.encoded (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out_eq_encoded _ _ _ _), (h c).2⟩) (run_out m ρ)

end Cert.ReferenceIdeal.RefValue

end
-- ==== Proof.lean ====
/-
  The five conjuncts of `Cert.Claim` for the patch encoding

      out (B, r, d) = (∑ p < 8, x (B, 8 r + p) · w (p, d)) + pos (r, d) + b d      (Proof/Spec.lean).

  The kernel cuts the 1024 rows into 32 blocks of 32 rows; for each row it multiplies the transpose of the row's `8 × 128` table of
  patch samples by the `8 × 512` matrix and adds the position rows plus the bias row (Proof/KernelBlock.lean: what one grid point
  writes; Proof/KernelHost.lean: the transposed patches and the bias row the host prepares; Proof/KernelValue.lean: the 32 blocks
  put together). The reference contracts the patches with the matrix in one product, adds the bias, then adds the first 128 rows
  of the position table, which it takes by a gather at the indices `0 … 127` — all of them inside the table, so the gather's
  out-of-range mask is all ones and the gathered rows are the table's own (Proof/RefRun.lean, Proof/RefRead.lean,
  Proof/RefFinal.lean). Both results are the encoding above: the kernel adds `pos + b` to the sum, the reference adds `b` and then
  `pos`, and addition of extended reals is associative and commutative, so no finiteness of the inputs is used.

  The frames of the two kernel programs are their generated frame runs; the reference has no kernel and its frame is its run
  with the result dropped; the idealization rewrote nothing, so `preserves` is `True`.
-/
import proofs.«128567_g67181878444427_cont_9to1c4b_463_22_alg».proof.Defs
import proofs.«128567_g67181878444427_cont_9to1c4b_463_22_alg».proof.Proof.Gen.Kernel
import proofs.«128567_g67181878444427_cont_9to1c4b_463_22_alg».proof.Proof.Gen.Kernel.Skeleton
import proofs.«128567_g67181878444427_cont_9to1c4b_463_22_alg».proof.Proof.Gen.Kernel.Launch
import proofs.«128567_g67181878444427_cont_9to1c4b_463_22_alg».proof.Proof.Gen.Kernel.Points
import proofs.«128567_g67181878444427_cont_9to1c4b_463_22_alg».proof.Proof.Gen.Kernel.Frame
import proofs.«128567_g67181878444427_cont_9to1c4b_463_22_alg».proof.Proof.Gen.KernelIdeal
import proofs.«128567_g67181878444427_cont_9to1c4b_463_22_alg».proof.Proof.Gen.KernelIdeal.Skeleton
import proofs.«128567_g67181878444427_cont_9to1c4b_463_22_alg».proof.Proof.Gen.KernelIdeal.Launch
import proofs.«128567_g67181878444427_cont_9to1c4b_463_22_alg».proof.Proof.Gen.KernelIdeal.Points
import proofs.«128567_g67181878444427_cont_9to1c4b_463_22_alg».proof.Proof.Gen.KernelIdeal.Frame
import proofs.«128567_g67181878444427_cont_9to1c4b_463_22_alg».proof.Proof.Gen.KernelIdeal.Value
import proofs.«128567_g67181878444427_cont_9to1c4b_463_22_alg».proof.Proof.Gen.ReferenceIdeal
import proofs.«128567_g67181878444427_cont_9to1c4b_463_22_alg».proof.Proof.Gen.Pre_finite_inputs
import proofs.«128567_g67181878444427_cont_9to1c4b_463_22_alg».proof.Proof.KernelValue
import proofs.«128567_g67181878444427_cont_9to1c4b_463_22_alg».proof.Proof.RefFinal
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- The reference is a line of host operations: its run, with the result forgotten. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run m ρ)

/-- From memories that agree on the four arguments both programs end with the encoding of those arguments in their result
    arrays: the kernel's run (the 32 blocks covering the array) and the reference's run (its composed term read entry by
    entry) are stated with the same function, so the results are equal once the arguments' agreement is rewritten. -/
theorem algebraic :
    @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Whole.target m c, Cert.KernelIdeal.Whole.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
